-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256 : Shape := ⟨1, ![256]⟩
abbrev S400000x128 : Shape := ⟨2, ![400000, 128]⟩
abbrev S500x128 : Shape := ⟨2, ![500, 128]⟩
abbrev S128x64 : Shape := ⟨2, ![128, 64]⟩
abbrev S30x20x2 : Shape := ⟨3, ![30, 20, 2]⟩
abbrev S128 : Shape := ⟨1, ![128]⟩
abbrev S30 : Shape := ⟨1, ![30]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S30 : S_.BroadcastsInDim S30 (![] : Fin 0 → Fin S30.rank)
  reducesTo_S30_S_d0 : S30.ReducesTo [0] S_

variable [Facts]

def fn_part3 {F : FTy → Type} [FloatOps F] (main_v48 : IVec S_ 1) (main_v49 : FVec F S30 .f32) (main_v50 : FVec F S30 .f32) : IVec S_ 1 :=
  let main_v51 : IVec S30 1 := cmpf .olt main_v49 main_v50
  let main_c_19 : IVec S_ 1 := constantI S_ 1 1#1
  let main_v52 : IVec S_ 1 := (fun x v => Host.reduce IntOp.andi x v reducesTo_S30_S_d0 h_S_) main_v51 main_c_19
  let main_v53 : IVec S_ 1 := andi main_v48 main_v52
  main_v53

def fn_part2 {F : FTy → Type} [FloatOps F] (main_arg10 : FVec F S30 .f32) (main_arg11 : FVec F S30 .f32) (main_arg12 : FVec F S30 .f32) (main_arg13 : FVec F S30 .f32) (main_v33 : IVec S_ 1) : IVec S_ 1 :=
  let main_v34 : FVec F S30 .f32 := Host.absf main_arg10
  let main_cst_12 : FVec F S_ .f32 := constant S_ .f32 0x7F800000#32
  let main_v35 : FVec F S30 .f32 := broadcastInDim S30 ![] bcast_S_S30 main_cst_12
  let main_v36 : IVec S30 1 := cmpf .olt main_v34 main_v35
  let main_c_13 : IVec S_ 1 := constantI S_ 1 1#1
  let main_v37 : IVec S_ 1 := (fun x v => Host.reduce IntOp.andi x v reducesTo_S30_S_d0 h_S_) main_v36 main_c_13
  let main_v38 : IVec S_ 1 := andi main_v33 main_v37
  let main_v39 : FVec F S30 .f32 := Host.absf main_arg11
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  let main_v44 : FVec F S30 .f32 := Host.absf main_arg12
  let main_cst_16 : FVec F S_ .f32 := constant S_ .f32 0x7F800000#32
  let main_v45 : FVec F S30 .f32 := broadcastInDim S30 ![] bcast_S_S30 main_cst_16
  let main_v46 : IVec S30 1 := cmpf .olt main_v44 main_v45
  let main_c_17 : IVec S_ 1 := constantI S_ 1 1#1
  let main_v47 : IVec S_ 1 := (fun x v => Host.reduce IntOp.andi x v reducesTo_S30_S_d0 h_S_) main_v46 main_c_17
  let main_v48 : IVec S_ 1 := andi main_v43 main_v47
  let main_v49 : FVec F S30 .f32 := Host.absf main_arg13
  let main_cst_18 : FVec F S_ .f32 := constant S_ .f32 0x7F800000#32
  let main_v50 : FVec F S30 .f32 := broadcastInDim S30 ![] bcast_S_S30 main_cst_18
  fn_part3 (F := F) main_v48 main_v49 main_v50

def fn_part1 {F : FTy → Type} [FloatOps F] (main_arg7 : FVec F S128 .f32) (main_arg8 : FVec F S128 .f32) (main_arg9 : FVec F S128 .f32) (main_arg10 : FVec F S30 .f32) (main_arg11 : FVec F S30 .f32) (main_arg12 : FVec F S30 .f32) (main_arg13 : FVec F S30 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : IVec S256 32) (main_arg1 : IVec S256 32) (main_arg2 : FVec F S400000x128 .f32) (main_arg3 : FVec F S500x128 .f32) (main_arg4 : FVec F S128x64 .f32) (main_arg5 : IVec S30x20x2 32) (main_arg6 : FVec F S128 .f32) (main_arg7 : FVec F S128 .f32) (main_arg8 : FVec F S128 .f32) (main_arg9 : FVec F S128 .f32) (main_arg10 : FVec F S30 .f32) (main_arg11 : FVec F S30 .f32) (main_arg12 : FVec F S30 .f32) (main_arg13 : FVec F S30 .f32) : IVec S_ 1 :=
  let main_v0 : FVec F S400000x128 .f32 := Host.absf main_arg2
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S500x128 .f32 := Host.absf main_arg3
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S256 : Shape := ⟨1, ![256]⟩
abbrev S400000x128 : Shape := ⟨2, ![400000, 128]⟩
abbrev S500x128 : Shape := ⟨2, ![500, 128]⟩
abbrev S128x64 : Shape := ⟨2, ![128, 64]⟩
abbrev S30x20x2 : Shape := ⟨3, ![30, 20, 2]⟩
abbrev S128 : Shape := ⟨1, ![128]⟩
abbrev S30 : Shape := ⟨1, ![30]⟩
abbrev S_ : Shape := ⟨0, ![]⟩
abbrev S256x1 : Shape := ⟨2, ![256, 1]⟩
abbrev S256x128 : Shape := ⟨2, ![256, 128]⟩
abbrev S1x128 : Shape := ⟨2, ![1, 128]⟩
abbrev S256x64 : Shape := ⟨2, ![256, 64]⟩
abbrev S30x20x1 : Shape := ⟨3, ![30, 20, 1]⟩
abbrev S30x20 : Shape := ⟨2, ![30, 20]⟩
abbrev S256x30x20 : Shape := ⟨3, ![256, 30, 20]⟩
abbrev S256x30 : Shape := ⟨2, ![256, 30]⟩
abbrev S1x30 : Shape := ⟨2, ![1, 30]⟩
abbrev S256x400000 : Shape := ⟨2, ![256, 400000]⟩
abbrev S128x30 : Shape := ⟨2, ![128, 30]⟩
abbrev S16000x128 : Shape := ⟨2, ![16000, 128]⟩
abbrev S128x16000 : Shape := ⟨2, ![128, 16000]⟩
abbrev S16000x30 : Shape := ⟨2, ![16000, 30]⟩

abbrev nBuf : Space → Nat
  | .hbm => 113
  | .vmem => 6
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S400000x128, .f32⟩
  | .hbm, ⟨3, _⟩ => ⟨S500x128, .f32⟩
  | .hbm, ⟨4, _⟩ => ⟨S128x64, .f32⟩
  | .hbm, ⟨5, _⟩ => ⟨S30x20x2, .i32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S30, .f32⟩
  | .hbm, ⟨11, _⟩ => ⟨S30, .f32⟩
  | .hbm, ⟨12, _⟩ => ⟨S30, .f32⟩
  | .hbm, ⟨13, _⟩ => ⟨S30, .f32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x128, .f32⟩
  | .hbm, ⟨23, _⟩ => ⟨S1x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S256x128, .f32⟩
  | .hbm, ⟨32, _⟩ => ⟨S256x128, .f32⟩
  | .hbm, ⟨33, _⟩ => ⟨S1x128, .f32⟩
  | .hbm, ⟨34, _⟩ => ⟨S256x128, .f32⟩
  | .hbm, ⟨35, _⟩ => ⟨S256x128, .f32⟩
  | .hbm, ⟨36, _⟩ => ⟨S1x128, .f32⟩
  | .hbm, ⟨37, _⟩ => ⟨S256x128, .f32⟩
  | .hbm, ⟨38, _⟩ => ⟨S256x128, .f32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S256x1, .i32⟩
  | .hbm, ⟨47, _⟩ => ⟨S256x128, .f32⟩
  | .hbm, ⟨48, _⟩ => ⟨S256x64, .f32⟩
  | .hbm, ⟨49, _⟩ => ⟨S256x64, .f32⟩
  | .hbm, ⟨50, _⟩ => ⟨S30x20x1, .i32⟩
  | .hbm, ⟨51, _⟩ => ⟨S30x20, .i32⟩
  | .hbm, ⟨52, _⟩ => ⟨S_, .i32⟩
  | .hbm, ⟨53, _⟩ => ⟨S30x20, .i32⟩
  | .hbm, ⟨54, _⟩ => ⟨S30x20, .i1⟩
  | .hbm, ⟨55, _⟩ => ⟨S_, .i32⟩
  | .hbm, ⟨56, _⟩ => ⟨S30x20, .i32⟩
  | .hbm, ⟨57, _⟩ => ⟨S30x20, .i32⟩
  | .hbm, ⟨58, _⟩ => ⟨S30x20, .i32⟩
  | .hbm, ⟨59, _⟩ => ⟨S30x20x1, .i32⟩
  | .hbm, ⟨60, _⟩ => ⟨S256x30x20, .f32⟩
  | .hbm, ⟨61, _⟩ => ⟨S30x20x1, .i32⟩
  | .hbm, ⟨62, _⟩ => ⟨S30x20, .i32⟩
  | .hbm, ⟨63, _⟩ => ⟨S_, .i32⟩
  | .hbm, ⟨64, _⟩ => ⟨S30x20, .i32⟩
  | .hbm, ⟨65, _⟩ => ⟨S30x20, .i1⟩
  | .hbm, ⟨66, _⟩ => ⟨S_, .i32⟩
  | .hbm, ⟨67, _⟩ => ⟨S30x20, .i32⟩
  | .hbm, ⟨68, _⟩ => ⟨S30x20, .i32⟩
  | .hbm, ⟨69, _⟩ => ⟨S30x20, .i32⟩
  | .hbm, ⟨70, _⟩ => ⟨S30x20x1, .i32⟩
  | .hbm, ⟨71, _⟩ => ⟨S256x30x20, .f32⟩
  | .hbm, ⟨72, _⟩ => ⟨S256x30x20, .f32⟩
  | .hbm, ⟨73, _⟩ => ⟨S_, .f32⟩
  | .hbm, ⟨74, _⟩ => ⟨S256x30, .f32⟩
  | .hbm, ⟨75, _⟩ => ⟨S_, .f32⟩
  | .hbm, ⟨76, _⟩ => ⟨S256x30, .f32⟩
  | .hbm, ⟨77, _⟩ => ⟨S256x30, .f32⟩
  | .hbm, ⟨78, _⟩ => ⟨S256x30, .f32⟩
  | .hbm, ⟨79, _⟩ => ⟨S256x30, .f32⟩
  | .hbm, ⟨80, _⟩ => ⟨S_, .f32⟩
  | .hbm, ⟨81, _⟩ => ⟨S256x30, .f32⟩
  | .hbm, ⟨82, _⟩ => ⟨S256x30, .f32⟩
  | .hbm, ⟨83, _⟩ => ⟨S256x30, .f32⟩
  | .hbm, ⟨84, _⟩ => ⟨S256x30, .f32⟩
  | .hbm, ⟨85, _⟩ => ⟨S256x30, .f32⟩
  | .hbm, ⟨86, _⟩ => ⟨S_, .f32⟩
  | .hbm, ⟨87, _⟩ => ⟨S256, .f32⟩
  | .hbm, ⟨88, _⟩ => ⟨S256x1, .f32⟩
  | .hbm, ⟨89, _⟩ => ⟨S256x1, .f32⟩
  | .hbm, ⟨90, _⟩ => ⟨S_, .f32⟩
  | .hbm, ⟨91, _⟩ => ⟨S256x1, .f32⟩
  | .hbm, ⟨92, _⟩ => ⟨S256x1, .f32⟩
  | .hbm, ⟨93, _⟩ => ⟨S256x30, .f32⟩
  | .hbm, ⟨94, _⟩ => ⟨S256x30, .f32⟩
  | .hbm, ⟨95, _⟩ => ⟨S1x30, .f32⟩
  | .hbm, ⟨96, _⟩ => ⟨S256x30, .f32⟩
  | .hbm, ⟨97, _⟩ => ⟨S256x30, .f32⟩
  | .hbm, ⟨98, _⟩ => ⟨S_, .f32⟩
  | .hbm, ⟨99, _⟩ => ⟨S30, .f32⟩
  | .hbm, ⟨100, _⟩ => ⟨S30, .f32⟩
  | .hbm, ⟨101, _⟩ => ⟨S30, .f32⟩
  | .hbm, ⟨102, _⟩ => ⟨S1x30, .f32⟩
  | .hbm, ⟨103, _⟩ => ⟨S256x30, .f32⟩
  | .hbm, ⟨104, _⟩ => ⟨S256x30, .f32⟩
  | .hbm, ⟨105, _⟩ => ⟨S1x30, .f32⟩
  | .hbm, ⟨106, _⟩ => ⟨S256x30, .f32⟩
  | .hbm, ⟨107, _⟩ => ⟨S256x30, .f32⟩
  | .hbm, ⟨108, _⟩ => ⟨S1x30, .f32⟩
  | .hbm, ⟨109, _⟩ => ⟨S256x30, .f32⟩
  | .hbm, ⟨110, _⟩ => ⟨S256x30, .f32⟩
  | .hbm, ⟨111, _⟩ => ⟨S256x30, .bf16⟩
  | .hbm, ⟨112, _⟩ => ⟨S256x400000, .f32⟩
  | .local _ .vmem, ⟨0, _⟩ => ⟨S128x30, .bf16⟩
  | .local _ .vmem, ⟨1, _⟩ => ⟨S128x30, .bf16⟩
  | .local _ .vmem, ⟨2, _⟩ => ⟨S16000x128, .f32⟩
  | .local _ .vmem, ⟨3, _⟩ => ⟨S16000x128, .f32⟩
  | .local _ .vmem, ⟨4, _⟩ => ⟨S128x16000, .f32⟩
  | .local _ .vmem, ⟨5, _⟩ => ⟨S128x16000, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call0_v0 : Ref sig .tc := ⟨.hbm, 85, rfl⟩
abbrev main_call0_cst : Ref sig .tc := ⟨.hbm, 86, rfl⟩
abbrev main_call0_v1 : Ref sig .tc := ⟨.hbm, 87, rfl⟩
abbrev main_call0_v2 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x30 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S128 : S_.BroadcastsInDim S128 (![] : Fin 0 → Fin S128.rank)
  slices_S30x20x2_S30x20x1_0_0_0 : S30x20x2.Slices ![0, 0, 0] S30x20x1
  shapeCasts_S30x20x1_S30x20 : S30x20x1.ShapeCasts S30x20
  bcast_S_S30x20 : S_.BroadcastsInDim S30x20 (![] : Fin 0 → Fin S30x20.rank)
  bcast_S30x20_S30x20x1_0_1 : S30x20.BroadcastsInDim S30x20x1 (![0, 1] : Fin 2 → Fin S30x20x1.rank)
  slices_S30x20x2_S30x20x1_0_0_1 : S30x20x2.Slices ![0, 0, 1] S30x20x1
  reducesTo_S256x30x20_S256x30_d2 : S256x30x20.ReducesTo [2] S256x30
  h_S_ : 0 < S_.numel
  bcast_S_S256x30 : S_.BroadcastsInDim S256x30 (![] : Fin 0 → Fin S256x30.rank)
  reducesTo_S256x30_S256_d1 : S256x30.ReducesTo [1] S256
  bcast_S_S256x1 : S_.BroadcastsInDim S256x1 (![] : Fin 0 → Fin S256x1.rank)
  bcast_S256x1_S256x30_0_1 : S256x1.BroadcastsInDim S256x30 (![0, 1] : Fin 2 → Fin S256x30.rank)
  bcast_S30_S1x30_1 : S30.BroadcastsInDim S1x30 (![1] : Fin 1 → Fin S1x30.rank)
  bcast_S1x30_S256x30_0_1 : S1x30.BroadcastsInDim S256x30 (![0, 1] : Fin 2 → Fin S256x30.rank)
  bcast_S_S30 : S_.BroadcastsInDim S30 (![] : Fin 0 → Fin S30.rank)
  bitsLt_bf16_f32 : FTy.bits .bf16 < FTy.bits .f32
  inb_S128x30_S128x30_0_0 : ∀ a, (![0, 0] : Fin 2 → Nat) a + S128x30.size a ≤ S128x30.size a
  h_S128x30 : 0 < S128x30.numel
  shapeCasts_S128x30_S128x30 : S128x30.ShapeCasts S128x30
  inb_S16000x128_S16000x128_0_0 : ∀ a, (![0, 0] : Fin 2 → Nat) a + S16000x128.size a ≤ S16000x128.size a
  h_S16000x128 : 0 < S16000x128.numel
  slices_S16000x128_o0_0_S16000x30 : S16000x128.Slices ![0, 0] S16000x30
  inb_S128x16000_S128x16000_0_0 : ∀ a, (![0, 0] : Fin 2 → Nat) a + S128x16000.size a ≤ S128x16000.size a
  h_S128x16000 : 0 < S128x16000.numel
  gather_S400000x128_S256x1_S256x128_1_0_n_n_0_1_1128_wf : GatherDims.WF S400000x128 S256x1 S256x128 [1] [0] [] [0] [] 1 ![1, 128]
  gather_S500x128_S256x1_S256x128_1_0_n_n_0_1_1128_wf : GatherDims.WF S500x128 S256x1 S256x128 [1] [0] [] [0] [] 1 ![1, 128]
  dot_S256x128_S128x64_S256x64_1_0_0_1_n_n_wf : DotDims.WF S256x128 S128x64 S256x64 [1] [0] [0] [1] [] []
  gather_S256x64_S30x20x1_S256x30x20_0_1_n_n_1_2_2561_wf : GatherDims.WF S256x64 S30x20x1 S256x30x20 [0] [1] [] [1] [] 2 ![256, 1]
  dot_S128x30_S16000x30_S128x16000_1_1_0_0_n_n_wf : DotDims.WF S128x30 S16000x30 S128x16000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x30.size a ≤ S256x30.size a
  hwx0_0 : ∀ i : grid0.Coords, EltTy.bits .bf16 = 32 ∨ (Rect.block (s := S256x30) S128x30.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x128.size a ≤ S400000x128.size a
  hwx0_1 : ∀ i : grid0.Coords, EltTy.bits .f32 = 32 ∨ (Rect.block (s := S400000x128) S16000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16000.size a ≤ S256x400000.size a
  hwx0_2 : ∀ i : grid0.Coords, EltTy.bits .f32 = 32 ∨ (Rect.block (s := S256x400000) S128x16000.size (cc0_transform_2 i) (hinb0_2 i)).WholeWords (EltTy.packing .f32)

variable [Facts₀]

def gather_S400000x128_S256x1_S256x128_1_0_n_n_0_1_1128 : GatherDims S400000x128 S256x1 S256x128 where
  offsetDims := [1]
  collapsedSliceDims := [0]
  operandBatchingDims := []
  startIndicesBatchingDims := []
  startIndexMap := [0]
  indexVectorDim := 1
  sliceSizes := ![1, 128]
  wf := gather_S400000x128_S256x1_S256x128_1_0_n_n_0_1_1128_wf
def gather_S500x128_S256x1_S256x128_1_0_n_n_0_1_1128 : GatherDims S500x128 S256x1 S256x128 where
  offsetDims := [1]
  collapsedSliceDims := [0]
  operandBatchingDims := []
  startIndicesBatchingDims := []
  startIndexMap := [0]
  indexVectorDim := 1
  sliceSizes := ![1, 128]
  wf := gather_S500x128_S256x1_S256x128_1_0_n_n_0_1_1128_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def gather_S256x64_S30x20x1_S256x30x20_0_1_n_n_1_2_2561 : GatherDims S256x64 S30x20x1 S256x30x20 where
  offsetDims := [0]
  collapsedSliceDims := [1]
  operandBatchingDims := []
  startIndicesBatchingDims := []
  startIndexMap := [1]
  indexVectorDim := 2
  sliceSizes := ![256, 1]
  wf := gather_S256x64_S30x20x1_S256x30x20_0_1_n_n_1_2_2561_wf
def dot_S128x30_S16000x30_S128x16000_1_1_0_0_n_n : DotDims S128x30 S16000x30 S128x16000 where
  lhsContracting := [1]
  rhsContracting := [1]
  lhsNonContracting := [0]
  rhsNonContracting := [0]
  lhsBatch := []
  rhsBatch := []
  wf := dot_S128x30_S16000x30_S128x16000_1_1_0_0_n_n_wf

abbrev win0_0 : Pipeline.Window sig grid0 :=
  Pipeline.Window.ofSpec (Memref.whole main_v79) S128x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v80) S128x16000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256 : Shape := ⟨1, ![256]⟩
abbrev S400000x128 : Shape := ⟨2, ![400000, 128]⟩
abbrev S500x128 : Shape := ⟨2, ![500, 128]⟩
abbrev S128x64 : Shape := ⟨2, ![128, 64]⟩
abbrev S30x20x2 : Shape := ⟨3, ![30, 20, 2]⟩
abbrev S128 : Shape := ⟨1, ![128]⟩
abbrev S30 : Shape := ⟨1, ![30]⟩
abbrev S_ : Shape := ⟨0, ![]⟩
abbrev S256x1 : Shape := ⟨2, ![256, 1]⟩
abbrev S256x128 : Shape := ⟨2, ![256, 128]⟩
abbrev S1x128 : Shape := ⟨2, ![1, 128]⟩
abbrev S256x64 : Shape := ⟨2, ![256, 64]⟩
abbrev S30x20x1 : Shape := ⟨3, ![30, 20, 1]⟩
abbrev S30x20 : Shape := ⟨2, ![30, 20]⟩
abbrev S256x30x20 : Shape := ⟨3, ![256, 30, 20]⟩
abbrev S256x30 : Shape := ⟨2, ![256, 30]⟩
abbrev S1x30 : Shape := ⟨2, ![1, 30]⟩
abbrev S400000x30 : Shape := ⟨2, ![400000, 30]⟩
abbrev S30x400000 : Shape := ⟨2, ![30, 400000]⟩
abbrev S256x400000 : Shape := ⟨2, ![256, 400000]⟩

abbrev nBuf : Space → Nat
  | .hbm => 122
  | .vmem => 0
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S400000x128, .f32⟩
  | .hbm, ⟨3, _⟩ => ⟨S500x128, .f32⟩
  | .hbm, ⟨4, _⟩ => ⟨S128x64, .f32⟩
  | .hbm, ⟨5, _⟩ => ⟨S30x20x2, .i32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S30, .f32⟩
  | .hbm, ⟨11, _⟩ => ⟨S30, .f32⟩
  | .hbm, ⟨12, _⟩ => ⟨S30, .f32⟩
  | .hbm, ⟨13, _⟩ => ⟨S30, .f32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x128, .f32⟩
  | .hbm, ⟨23, _⟩ => ⟨S1x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S256x128, .f32⟩
  | .hbm, ⟨32, _⟩ => ⟨S256x128, .f32⟩
  | .hbm, ⟨33, _⟩ => ⟨S1x128, .f32⟩
  | .hbm, ⟨34, _⟩ => ⟨S256x128, .f32⟩
  | .hbm, ⟨35, _⟩ => ⟨S256x128, .f32⟩
  | .hbm, ⟨36, _⟩ => ⟨S1x128, .f32⟩
  | .hbm, ⟨37, _⟩ => ⟨S256x128, .f32⟩
  | .hbm, ⟨38, _⟩ => ⟨S256x128, .f32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S256x1, .i32⟩
  | .hbm, ⟨47, _⟩ => ⟨S256x128, .f32⟩
  | .hbm, ⟨48, _⟩ => ⟨S256x64, .f32⟩
  | .hbm, ⟨49, _⟩ => ⟨S256x64, .f32⟩
  | .hbm, ⟨50, _⟩ => ⟨S30x20x1, .i32⟩
  | .hbm, ⟨51, _⟩ => ⟨S30x20, .i32⟩
  | .hbm, ⟨52, _⟩ => ⟨S_, .i32⟩
  | .hbm, ⟨53, _⟩ => ⟨S30x20, .i32⟩
  | .hbm, ⟨54, _⟩ => ⟨S30x20, .i1⟩
  | .hbm, ⟨55, _⟩ => ⟨S_, .i32⟩
  | .hbm, ⟨56, _⟩ => ⟨S30x20, .i32⟩
  | .hbm, ⟨57, _⟩ => ⟨S30x20, .i32⟩
  | .hbm, ⟨58, _⟩ => ⟨S30x20, .i32⟩
  | .hbm, ⟨59, _⟩ => ⟨S30x20x1, .i32⟩
  | .hbm, ⟨60, _⟩ => ⟨S256x30x20, .f32⟩
  | .hbm, ⟨61, _⟩ => ⟨S30x20x1, .i32⟩
  | .hbm, ⟨62, _⟩ => ⟨S30x20, .i32⟩
  | .hbm, ⟨63, _⟩ => ⟨S_, .i32⟩
  | .hbm, ⟨64, _⟩ => ⟨S30x20, .i32⟩
  | .hbm, ⟨65, _⟩ => ⟨S30x20, .i1⟩
  | .hbm, ⟨66, _⟩ => ⟨S_, .i32⟩
  | .hbm, ⟨67, _⟩ => ⟨S30x20, .i32⟩
  | .hbm, ⟨68, _⟩ => ⟨S30x20, .i32⟩
  | .hbm, ⟨69, _⟩ => ⟨S30x20, .i32⟩
  | .hbm, ⟨70, _⟩ => ⟨S30x20x1, .i32⟩
  | .hbm, ⟨71, _⟩ => ⟨S256x30x20, .f32⟩
  | .hbm, ⟨72, _⟩ => ⟨S256x30x20, .f32⟩
  | .hbm, ⟨73, _⟩ => ⟨S_, .f32⟩
  | .hbm, ⟨74, _⟩ => ⟨S256x30, .f32⟩
  | .hbm, ⟨75, _⟩ => ⟨S_, .f32⟩
  | .hbm, ⟨76, _⟩ => ⟨S256x30, .f32⟩
  | .hbm, ⟨77, _⟩ => ⟨S256x30, .f32⟩
  | .hbm, ⟨78, _⟩ => ⟨S256x30, .f32⟩
  | .hbm, ⟨79, _⟩ => ⟨S256x30, .f32⟩
  | .hbm, ⟨80, _⟩ => ⟨S_, .f32⟩
  | .hbm, ⟨81, _⟩ => ⟨S256x30, .f32⟩
  | .hbm, ⟨82, _⟩ => ⟨S256x30, .f32⟩
  | .hbm, ⟨83, _⟩ => ⟨S256x30, .f32⟩
  | .hbm, ⟨84, _⟩ => ⟨S256x30, .f32⟩
  | .hbm, ⟨85, _⟩ => ⟨S256x30, .f32⟩
  | .hbm, ⟨86, _⟩ => ⟨S_, .f32⟩
  | .hbm, ⟨87, _⟩ => ⟨S256, .f32⟩
  | .hbm, ⟨88, _⟩ => ⟨S256x1, .f32⟩
  | .hbm, ⟨89, _⟩ => ⟨S256x1, .f32⟩
  | .hbm, ⟨90, _⟩ => ⟨S_, .f32⟩
  | .hbm, ⟨91, _⟩ => ⟨S256x1, .f32⟩
  | .hbm, ⟨92, _⟩ => ⟨S256x1, .f32⟩
  | .hbm, ⟨93, _⟩ => ⟨S256x30, .f32⟩
  | .hbm, ⟨94, _⟩ => ⟨S256x30, .f32⟩
  | .hbm, ⟨95, _⟩ => ⟨S1x30, .f32⟩
  | .hbm, ⟨96, _⟩ => ⟨S256x30, .f32⟩
  | .hbm, ⟨97, _⟩ => ⟨S256x30, .f32⟩
  | .hbm, ⟨98, _⟩ => ⟨S_, .f32⟩
  | .hbm, ⟨99, _⟩ => ⟨S30, .f32⟩
  | .hbm, ⟨100, _⟩ => ⟨S30, .f32⟩
  | .hbm, ⟨101, _⟩ => ⟨S30, .f32⟩
  | .hbm, ⟨102, _⟩ => ⟨S1x30, .f32⟩
  | .hbm, ⟨103, _⟩ => ⟨S256x30, .f32⟩
  | .hbm, ⟨104, _⟩ => ⟨S256x30, .f32⟩
  | .hbm, ⟨105, _⟩ => ⟨S1x30, .f32⟩
  | .hbm, ⟨106, _⟩ => ⟨S256x30, .f32⟩
  | .hbm, ⟨107, _⟩ => ⟨S256x30, .f32⟩
  | .hbm, ⟨108, _⟩ => ⟨S1x30, .f32⟩
  | .hbm, ⟨109, _⟩ => ⟨S256x30, .f32⟩
  | .hbm, ⟨110, _⟩ => ⟨S256x30, .f32⟩
  | .hbm, ⟨111, _⟩ => ⟨S400000x30, .f32⟩
  | .hbm, ⟨112, _⟩ => ⟨S30x400000, .f32⟩
  | .hbm, ⟨113, _⟩ => ⟨S256x400000, .f32⟩
  | .hbm, ⟨114, _⟩ => ⟨S256x400000, .f32⟩
  | .hbm, ⟨115, _⟩ => ⟨S256x400000, .f32⟩
  | .hbm, ⟨116, _⟩ => ⟨S_, .f32⟩
  | .hbm, ⟨117, _⟩ => ⟨S256x400000, .f32⟩
  | .hbm, ⟨118, _⟩ => ⟨S256x400000, .f32⟩
  | .hbm, ⟨119, _⟩ => ⟨S_, .f32⟩
  | .hbm, ⟨120, _⟩ => ⟨S256x400000, .f32⟩
  | .hbm, ⟨121, _⟩ => ⟨S256x400000, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call0_v0 : Ref sig .tc := ⟨.hbm, 85, rfl⟩
abbrev main_call0_cst : Ref sig .tc := ⟨.hbm, 86, rfl⟩
abbrev main_call0_v1 : Ref sig .tc := ⟨.hbm, 87, rfl⟩
abbrev main_call0_v2 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_cst_13 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S128 : S_.BroadcastsInDim S128 (![] : Fin 0 → Fin S128.rank)
  slices_S30x20x2_S30x20x1_0_0_0 : S30x20x2.Slices ![0, 0, 0] S30x20x1
  shapeCasts_S30x20x1_S30x20 : S30x20x1.ShapeCasts S30x20
  bcast_S_S30x20 : S_.BroadcastsInDim S30x20 (![] : Fin 0 → Fin S30x20.rank)
  bcast_S30x20_S30x20x1_0_1 : S30x20.BroadcastsInDim S30x20x1 (![0, 1] : Fin 2 → Fin S30x20x1.rank)
  slices_S30x20x2_S30x20x1_0_0_1 : S30x20x2.Slices ![0, 0, 1] S30x20x1
  reducesTo_S256x30x20_S256x30_d2 : S256x30x20.ReducesTo [2] S256x30
  h_S_ : 0 < S_.numel
  bcast_S_S256x30 : S_.BroadcastsInDim S256x30 (![] : Fin 0 → Fin S256x30.rank)
  reducesTo_S256x30_S256_d1 : S256x30.ReducesTo [1] S256
  bcast_S_S256x1 : S_.BroadcastsInDim S256x1 (![] : Fin 0 → Fin S256x1.rank)
  bcast_S256x1_S256x30_0_1 : S256x1.BroadcastsInDim S256x30 (![0, 1] : Fin 2 → Fin S256x30.rank)
  bcast_S30_S1x30_1 : S30.BroadcastsInDim S1x30 (![1] : Fin 1 → Fin S1x30.rank)
  bcast_S1x30_S256x30_0_1 : S1x30.BroadcastsInDim S256x30 (![0, 1] : Fin 2 → Fin S256x30.rank)
  bcast_S_S30 : S_.BroadcastsInDim S30 (![] : Fin 0 → Fin S30.rank)
  slices_S400000x128_S400000x30_0_0 : S400000x128.Slices ![0, 0] S400000x30
  transposes_S400000x30_S30x400000_1_0 : S400000x30.Transposes [1, 0] S30x400000
  bcast_S_S256x400000 : S_.BroadcastsInDim S256x400000 (![] : Fin 0 → Fin S256x400000.rank)
  gather_S400000x128_S256x1_S256x128_1_0_n_n_0_1_1128_wf : GatherDims.WF S400000x128 S256x1 S256x128 [1] [0] [] [0] [] 1 ![1, 128]
  gather_S500x128_S256x1_S256x128_1_0_n_n_0_1_1128_wf : GatherDims.WF S500x128 S256x1 S256x128 [1] [0] [] [0] [] 1 ![1, 128]
  dot_S256x128_S128x64_S256x64_1_0_0_1_n_n_wf : DotDims.WF S256x128 S128x64 S256x64 [1] [0] [0] [1] [] []
  gather_S256x64_S30x20x1_S256x30x20_0_1_n_n_1_2_2561_wf : GatherDims.WF S256x64 S30x20x1 S256x30x20 [0] [1] [] [1] [] 2 ![256, 1]
  dot_S256x30_S30x400000_S256x400000_1_0_0_1_n_n_wf : DotDims.WF S256x30 S30x400000 S256x400000 [1] [0] [0] [1] [] []

variable [Facts₀]

def gather_S400000x128_S256x1_S256x128_1_0_n_n_0_1_1128 : GatherDims S400000x128 S256x1 S256x128 where
  offsetDims := [1]
  collapsedSliceDims := [0]
  operandBatchingDims := []
  startIndicesBatchingDims := []
  startIndexMap := [0]
  indexVectorDim := 1
  sliceSizes := ![1, 128]
  wf := gather_S400000x128_S256x1_S256x128_1_0_n_n_0_1_1128_wf
def gather_S500x128_S256x1_S256x128_1_0_n_n_0_1_1128 : GatherDims S500x128 S256x1 S256x128 where
  offsetDims := [1]
  collapsedSliceDims := [0]
  operandBatchingDims := []
  startIndicesBatchingDims := []
  startIndexMap := [0]
  indexVectorDim := 1
  sliceSizes := ![1, 128]
  wf := gather_S500x128_S256x1_S256x128_1_0_n_n_0_1_1128_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def gather_S256x64_S30x20x1_S256x30x20_0_1_n_n_1_2_2561 : GatherDims S256x64 S30x20x1 S256x30x20 where
  offsetDims := [0]
  collapsedSliceDims := [1]
  operandBatchingDims := []
  startIndicesBatchingDims := []
  startIndexMap := [1]
  indexVectorDim := 2
  sliceSizes := ![256, 1]
  wf := gather_S256x64_S30x20x1_S256x30x20_0_1_n_n_1_2_2561_wf
def dot_S256x30_S30x400000_S256x400000_1_0_0_1_n_n : DotDims S256x30 S30x400000 S256x400000 where
  lhsContracting := [1]
  rhsContracting := [0]
  lhsNonContracting := [0]
  rhsNonContracting := [1]
  lhsBatch := []
  rhsBatch := []
  wf := dot_S256x30_S30x400000_S256x400000_1_0_0_1_n_n_wf

class Facts : Prop extends Facts₀ where

variable [Facts]
-- ==== Proof.Score.lean ====
/-
  The function both programs compute, stated once over literal shapes and with no program in sight.

  An entity table `E` of 400000 rows of width 128 and a feature matrix `X` of 256 rows of width 30 give the score
  matrix
      score X E [b, v] = σ( ∑_{k < 30} X[b, k] · E[v, k] ),        σ(z) = 1 / (1 + e^(-z)),
  read on the extended reals: only the first 30 of a row's 128 columns enter the product. The sum is a finite sum in
  the additive commutative monoid of the extended reals, so it needs no finiteness of its terms to be well defined
  or to be re-indexed; and σ is one total function of an extended real (with σ(-∞) = 0 and σ(+∞) = 1), whether it is
  applied as a single operation or spelt as negate, exponential, add one, divide into one.
-/
import Idealize.ShloMosaic.PureOps.Ideal
import Idealize.ShloMosaic.Lib.ValueIdx

noncomputable section

namespace Cert.Score

open Idealize.ShloMosaic Idealize.ShloMosaic.ValueIdx

/-- Column `k < 30` of the feature matrix is column `k` of a 128-wide table row. -/
abbrev col (k : Fin 30) : Fin 128 := ⟨k.val, by omega⟩

/-- The logit of batch row `b` against entity `v`: the inner product of row `b` of `X` with the first 30 entries of
    row `v` of `E`. -/
def logit (X : (⟨2, ![256, 30]⟩ : Shape).Idx → EReal) (E : (⟨2, ![400000, 128]⟩ : Shape).Idx → EReal)
    (b : Fin 256) (v : Fin 400000) : EReal :=
  ∑ k : Fin 30, X (ix2 b k) * E (ix2 v (col k))

/-- The score matrix: the logistic function of every logit. -/
def score (X : (⟨2, ![256, 30]⟩ : Shape).Idx → EReal) (E : (⟨2, ![400000, 128]⟩ : Shape).Idx → EReal) :
    (⟨2, ![256, 400000]⟩ : Shape).Idx → EReal :=
  fun i => Ideal.logistic (logit X E (i 0) (i 1))

theorem score_apply (X : (⟨2, ![256, 30]⟩ : Shape).Idx → EReal) (E : (⟨2, ![400000, 128]⟩ : Shape).Idx → EReal)
    (b : Fin 256) (v : Fin 400000) : score X E (ix2 b v) = Ideal.logistic (logit X E b v) := rfl

/-- The single-precision word `0x3F800000` is the number one. -/
theorem one_word : Ideal.ofBits .f32 0x3F800000#32 = 1 := by
  simp [Ideal.ofBits, Ideal.ieee, -EReal.coe_mul]; norm_num

/-- The logistic function spelt out — one divided by one plus the exponential of the negation, both ones written as
    the word `0x3F800000` — is the logistic function, at every extended real. -/
theorem spelt_logistic (z : EReal) :
    Ideal.div (Ideal.ofBits .f32 0x3F800000#32) (Ideal.ofBits .f32 0x3F800000#32 + Ideal.exp (-z)) = Ideal.logistic z := by
  rw [one_word]; rfl

end Cert.Score

end
-- ==== Proof.RefScore.lean ====
/-
  The reference's last ten operations are the score function.

  After the shared prefix has produced the feature matrix `X` (the stage `val_main_v78` of the arguments), the
  reference slices the first 30 columns off the entity table, transposes the slab, contracts `X` with it over the
  30 features, and applies the logistic function spelt out as negate, exponential, add one, divide into one. Read at an
  index `[b, v]`: the slice reads column `k` of a row as column `k` of the 128-wide row, the transpose swaps the two
  coordinates back, so the contraction's term `k` is `X[b, k] · E[v, k]`; and the spelt-out logistic is the logistic
  function on every extended real. No property of `X` or `E` is used.
-/
import proofs.«119976_j33054068310429_2_alg».proof.Proof.Gen.ReferenceIdeal.Read
import proofs.«119976_j33054068310429_2_alg».proof.Proof.Score

noncomputable section

namespace Cert.ReferenceIdeal.RefScore

open Cert.ReferenceIdeal Cert.ReferenceIdeal.Gen Cert.ReferenceIdeal.Read Idealize.ShloMosaic Idealize.ShloMosaic.TcCoe
open Idealize.ShloMosaic.ValueIdx Cert.Score

/-- The contraction reads the feature matrix at row `b` of the result index and column `k`. -/
theorem lidx_eq (i : S256x400000.Idx) (k : Fin 30) : lidx_main_v81 i k = ix2 (i 0) k :=
  funext fun a => Fin.ext (by match a with | ⟨0, _⟩ => rfl | ⟨1, _⟩ => rfl)

/-- Through the transpose and the slice, the contraction reads the entity table at row `v` of the result index and
    column `k` of the 128. -/
theorem ridx_eq (i : S256x400000.Idx) (k : Fin 30) :
    idx_main_v79 (idx_main_v80 (ridx_main_v81 i k)) = ix2 (i 1) (col k) :=
  funext fun a => Fin.ext (by match a with | ⟨0, _⟩ => rfl | ⟨1, _⟩ => rfl)

/-- The reference's result, as a function of the arguments, is the score matrix of the prefix's feature matrix and
    the entity table. -/
theorem result_is_score (x0 x1 : (⟨S256, .i32⟩ : BufTy).Contents (Elt Ideal)) (x2 : (⟨S400000x128, .f32⟩ : BufTy).Contents (Elt Ideal)) (x3 : (⟨S500x128, .f32⟩ : BufTy).Contents (Elt Ideal)) (x4 : (⟨S128x64, .f32⟩ : BufTy).Contents (Elt Ideal)) (x5 : (⟨S30x20x2, .i32⟩ : BufTy).Contents (Elt Ideal)) (x6 x7 x8 x9 : (⟨S128, .f32⟩ : BufTy).Contents (Elt Ideal)) (x10 x11 x12 x13 : (⟨S30, .f32⟩ : BufTy).Contents (Elt Ideal)) :
    val_main_v87 (F := Ideal) x0 x1 x2 x3 x4 x5 x6 x7 x8 x9 x10 x11 x12 x13 = score (val_main_v78 (F := Ideal) x0 x1 x2 x3 x4 x5 x6 x7 x8 x9 x10 x11 x12 x13) x2 := by
  funext i
  rw [val_main_v87_apply, val_main_v86_apply, val_main_cst_13_apply, val_main_v85_apply, val_main_v84_apply,
    val_main_cst_12_apply, val_main_v83_apply, val_main_v82_apply, val_main_v81_apply]
  simp only [val_main_v80_apply, val_main_v79_apply, lidx_eq, ridx_eq]
  exact spelt_logistic _

end Cert.ReferenceIdeal.RefScore

end
-- ==== Proof.KernelBlock.lean ====
/-
  What the kernel body computes from one pair of blocks, read at an index.

  At a grid point the body holds a block `x` of 128 rows of the feature matrix (30 wide) and a block `e` of 16000 rows
  of the entity table (128 wide). It keeps the first 30 columns of `e`, changes their float format (the identity on
  extended reals), multiplies `x` by that slab with BOTH operands contracted on their second axis into an accumulator
  of zeros, and applies the logistic function. Entry `[p, q]` of what it stores is therefore
      σ( ∑_{k < 30} x[p, k] · e[q, k] ):
  a matrix product into a zero accumulator is the plain sum of products, the contraction's one axis is re-indexed
  by `k < 30`, and the slice reads column `k` of the 128.
-/
import proofs.«119976_j33054068310429_2_alg».proof.Proof.Gen.KernelIdeal.Skeleton
import proofs.«119976_j33054068310429_2_alg».proof.Proof.Score
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx Cert.Score

/-- The body's matrix product: [128, 30] by [16000, 30], each contracted on its axis 1, into [128, 16000]. -/
abbrev prod : DotDims S128x30 S16000x30 S128x16000 := dot_S128x30_S16000x30_S128x16000_1_1_0_0_n_n

/-- The left operand is read at the result's row … -/
theorem lhs_row (i : S128x16000.Idx) (q : prod.contr.Idx) : (prod.lhsIdx i q 0).val = (i 0).val := by
  unfold DotDims.lhsIdx
  rw [dif_neg (show ¬(0 : Fin S128x30.rank) ∈ prod.lhsBatch by decide),
    dif_pos (show (0 : Fin S128x30.rank) ∈ prod.lhsNonContracting by decide)]
  rfl
/-- … and the contraction's coordinate; -/
theorem lhs_col (i : S128x16000.Idx) (q : prod.contr.Idx) : (prod.lhsIdx i q 1).val = (q ⟨0, by decide⟩).val :=
  prod.lhsIdx_val_of_single rfl i q
/-- the right operand at the result's column, which is ITS row, … -/
theorem rhs_row (i : S128x16000.Idx) (q : prod.contr.Idx) : (prod.rhsIdx i q 0).val = (i 1).val := by
  unfold DotDims.rhsIdx
  rw [dif_neg (show ¬(0 : Fin S16000x30.rank) ∈ prod.rhsBatch by decide),
    dif_pos (show (0 : Fin S16000x30.rank) ∈ prod.rhsNonContracting by decide)]
  rfl
/-- … and the contraction's coordinate. -/
theorem rhs_col (i : S128x16000.Idx) (q : prod.contr.Idx) : (prod.rhsIdx i q 1).val = (q ⟨0, by decide⟩).val :=
  prod.rhsIdx_val_of_single rfl i q

/-- The product into a zero accumulator, at entry `[p, q]`: the sum over the 30 features of row `p` of the left times
    row `q` of the right. -/
theorem prod_apply (l : FVec Ideal S128x30 .bf16) (r : FVec Ideal S16000x30 .bf16) (p : Fin 128) (q : Fin 16000) :
    matmul prod none l r (constant (F := Ideal) S128x16000 .f32 0x00000000#32) (ix2 p q)
      = ∑ k : Fin 30, l (ix2 p k) * r (ix2 q k) := by
  refine (Ideal.matmul_constant_zero_apply prod none l r (ix2 p q)).trans ?_
  rw [← Equiv.sum_comp (contrEquiv1 prod 30 rfl rfl).symm]
  refine Finset.sum_congr rfl fun k _ => ?_
  have hk := contrEquiv1_symm_val prod 30 rfl rfl k
  have el : prod.lhsIdx (ix2 p q) ((contrEquiv1 prod 30 rfl rfl).symm k) = ix2 p k := funext fun a => Fin.ext (by
    match a with
    | ⟨0, _⟩ => exact lhs_row _ _
    | ⟨1, _⟩ => exact (lhs_col _ _).trans hk)
  have er : prod.rhsIdx (ix2 p q) ((contrEquiv1 prod 30 rfl rfl).symm k) = ix2 q k := funext fun a => Fin.ext (by
    match a with
    | ⟨0, _⟩ => exact rhs_row _ _
    | ⟨1, _⟩ => exact (rhs_col _ _).trans hk)
  rw [el, er]

/-- The first 30 columns of a block of table rows, after the change of float format: entry `[q, k]` is entry
    `[q, k]` of the 128-wide block. -/
theorem slab_apply (e : FVec Ideal S16000x128 .f32) (q : Fin 16000) (k : Fin 30) :
    (truncf .bf16 (extractStridedSlice S16000x30 ![0, 0] e Facts₀.slices_S16000x128_o0_0_S16000x30) Facts₀.bitsLt_bf16_f32
      : FVec Ideal S16000x30 .bf16) (ix2 q k) = e (ix2 q (col k)) :=
  extractStridedSlice_apply ![0, 0] e Facts₀.slices_S16000x128_o0_0_S16000x30 (ix2 q k) (ix2 q (col k)) (fun a =>
    match a with
    | ⟨0, _⟩ => by show q.val = 0 + q.val; omega
    | ⟨1, _⟩ => by show k.val = 0 + k.val; omega)

/-- THE BODY'S STORED VALUE at entry `[p, q]`: the logistic function of the inner product of row `p` of the feature
    block with the first 30 entries of row `q` of the table block. -/
theorem payload_apply (x : FVec Ideal S128x30 .bf16) (e : FVec Ideal S16000x128 .f32) (p : Fin 128) (q : Fin 16000) :
    k0_pay1 (F := Ideal) x e (ix2 p q) = Ideal.logistic (∑ k : Fin 30, x (ix2 p k) * e (ix2 q (col k))) := by
  unfold k0_pay1
  refine congrArg Ideal.logistic ((prod_apply _ _ p q).trans ?_)
  refine Finset.sum_congr rfl fun k _ => ?_
  refine congrArg₂ (· * ·) ?_ (slab_apply e q k)
  exact congrFun (shapeCast_self x Facts₀.shapeCasts_S128x30_S128x30) (ix2 p k)

end Cert.KernelIdeal.Block

end
-- ==== Proof.KernelEntry.lean ====
/-
  What the region finds in the array of its first window.

  Before the region is entered the kernel's program runs, on the host, the very operations with which the reference
  begins: the two table look-ups, the first normalisation, the two projections, the gathered products summed and
  scaled, the signed square root, the row normalisation and the second normalisation. Their result — the feature
  matrix — is named here `feat`, as the reference's own stage of the same arguments, and is never opened: both
  programs apply one and the same chain of operations to the same arrays, and nothing later depends on what that
  chain computes. The kernel's program then changes the matrix's float format, which on extended reals changes
  nothing, and that array is what window 0 of the region stages.
-/
import proofs.«119976_j33054068310429_2_alg».proof.Proof.Gen.KernelIdeal.Frame
import proofs.«119976_j33054068310429_2_alg».proof.Proof.Gen.ReferenceIdeal.Read

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The feature matrix of core `c`'s argument arrays: the shared host prefix, as one function of the fourteen
    arguments. -/
def feat (c : Dev nD) : FVec Ideal S256x30 .f32 :=
  Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

set_option maxRecDepth 8192 in
set_option maxHeartbeats 43200000 in
/-- When the region is entered, window 0's array holds the feature matrix in the narrower float format: the same
    extended reals. -/
theorem window0_array (c : Dev nD) :
    (V m c main_v79 : S256x30.Idx → EReal) = truncf .bf16 (feat m c) Facts₀.bitsLt_bf16_f32 := by
  dsimp only [V]
  simp only [hostOps0, hostOps0_1, hostOps0_2, List.flatten_cons, List.flatten_nil, List.append_nil, List.cons_append,
    List.nil_append]
  after_results_simp
  rfl

end Cert.KernelIdeal.Entry

end
-- ==== Proof.KernelValue.lean ====
/-
  From blocks to the whole array: what the kernel's run leaves in its result.

  The region's grid has 25 × 2 points. At point `t`, with grid coordinates `(g, h)`, the result's block is block
  `(h, g)` of the [256, 400000] array in tiles of [128, 16000]; the feature matrix's block is block `(h, 0)` of
  [256, 30] in tiles of [128, 30]; the table's block is block `(g, 0)` of [400000, 128] in tiles of [16000, 128].
  So entry `[p, q]` of the result's block is entry `[128·h + p, 16000·g + q]` of the array, row `p` of the feature
  block is row `128·h + p` of the feature matrix, and row `q` of the table block is row `16000·g + q` of the table:
  what the body stores at `[p, q]` is exactly the score of that array entry. The 50 blocks tile the array (every
  entry `[b, v]` lies in block `(b / 128, v / 16000)`), so after the run the array is the score matrix, everywhere.
-/
import proofs.«119976_j33054068310429_2_alg».proof.Proof.Gen.KernelIdeal.Value
import proofs.«119976_j33054068310429_2_alg».proof.Proof.KernelBlock
import proofs.«119976_j33054068310429_2_alg».proof.Proof.KernelEntry

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Score Cert.KernelIdeal.Entry

variable (m : (ℓ : Loc nD τ sig) → Buf (Elt Ideal) ℓ) (ρ : Dev nD → PrngReg)

theorem zero_offsets : (![0, 0] : Fin 2 → Nat) = fun _ => 0 := funext fun a => by fin_cases a <;> rfl

/-- The score matrix of core `c`'s arguments: of the shared prefix's feature matrix and the entity table. -/
def result (c : Dev nD) : S256x400000.Idx → EReal :=
  score (feat m c) (m ((c : Thread nD τ).loc main_arg2))

/-- The printed index maps over the 50 grid points: the feature block moves with the result's row block and stays in
    column block 0; the table block moves with the result's column block and stays in column block 0; the result's
    block indices range over 2 × 25. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 1 ∧ win0_2.index t (1 : Fin 2) ≤ 24 :=
  (by decide +kernel : ∀ t : Fin grid0.N, _)

/-- Every one of the 2 × 25 blocks of the result is some point's. -/
theorem block_onto : ∀ (q0 : Fin 2) (q1 : Fin 25), ∃ t : Fin cfg0.N, win0_2.index t = ![q0.val, q1.val] :=
  (by decide +kernel : ∀ (q0 : Fin 2) (q1 : Fin 25), ∃ t : Fin grid0.N, win0_2.index t = ![q0.val, q1.val])

/-- Row `p`, column `k` of the feature block at point `t` is row `r`, column `k` of the feature matrix, when `r` is
    the block's row offset plus `p` and the block sits in column block 0. -/
theorem feature_block (c : Dev nD) (t : Fin cfg0.N) (p : Fin 128) (k : Fin 30) (r : Fin 256)
    (hr : r.val = win0_0.index t (0 : Fin 2) * 128 + p.val) (hz : win0_0.index t (1 : Fin 2) = 0) :
    iblk m c 0 t (ix2 p k) = feat m c (ix2 r k) := by
  show V m c main_v79 (((cfg0.win 0).blk t).view.emb (ix2 p k)) = _
  have hi : ((cfg0.win 0).blk t).view.emb (ix2 p k) = ix2 r k := by
    funext a; apply Fin.ext
    match a with
    | ⟨0, _⟩ => show win0_0.index t (0 : Fin 2) * 128 + 1 * p.val = r.val; omega
    | ⟨1, _⟩ => show win0_0.index t (1 : Fin 2) * 30 + 1 * k.val = k.val; omega
  rw [hi]
  exact congrFun (window0_array m c) (ix2 r k)

/-- Row `q`, column `j` of the table block at point `t` is row `v`, column `j` of the entity table, when `v` is the
    block's row offset plus `q` and the block sits in column block 0. -/
theorem table_block (c : Dev nD) (t : Fin cfg0.N) (q : Fin 16000) (j : Fin 128) (v : Fin 400000)
    (hv : v.val = win0_1.index t (0 : Fin 2) * 16000 + q.val) (hz : win0_1.index t (1 : Fin 2) = 0) :
    iblk m c 1 t (ix2 q j) = m ((c : Thread nD τ).loc main_arg2) (ix2 v j) := by
  show V m c main_arg2 (((cfg0.win 1).blk t).view.emb (ix2 q j)) = _
  have hi : ((cfg0.win 1).blk t).view.emb (ix2 q j) = ix2 v j := by
    funext a; apply Fin.ext
    match a with
    | ⟨0, _⟩ => show win0_1.index t (0 : Fin 2) * 16000 + 1 * q.val = v.val; omega
    | ⟨1, _⟩ => show win0_1.index t (1 : Fin 2) * 128 + 1 * j.val = j.val; omega
  rw [hi, V_main_arg2]

/-- WHAT POINT `t` WRITES BACK is block `t` of the score matrix. -/
theorem flushed_is_block (c : Dev nD) (t : Fin cfg0.N) :
    (dats m 0 c).flushed 2 t = ((cfg0.win 2).blk t).view.read (Elt Ideal) (result m c) := by
  rw [Value.flushed2]
  unfold out0_2
  rw [View.canon_unit_zero zero_offsets]
  simp only [View.ld_unit_zero (S := S128x30) zero_offsets, View.ld_unit_zero (S := S16000x128) zero_offsets]
  obtain ⟨e00, e01, e10, e11, b0, b1⟩ := block_indices t
  funext j
  obtain ⟨p, q, rfl⟩ : ∃ (p : Fin 128) (q : Fin 16000), j = ix2 p q := ⟨j 0, j 1, eq_ix2 j⟩
  have hp : p.val < 128 := p.isLt
  have hq : q.val < 16000 := q.isLt
  let r : Fin 256 := ⟨win0_2.index t (0 : Fin 2) * 128 + p.val, by omega⟩
  let v : Fin 400000 := ⟨win0_2.index t (1 : Fin 2) * 16000 + q.val, by omega⟩
  have hi : ((cfg0.win 2).blk t).view.emb (ix2 p q) = ix2 r v := by
    funext a; apply Fin.ext
    match a with
    | ⟨0, _⟩ => show win0_2.index t (0 : Fin 2) * 128 + 1 * p.val = win0_2.index t (0 : Fin 2) * 128 + p.val; omega
    | ⟨1, _⟩ => show win0_2.index t (1 : Fin 2) * 16000 + 1 * q.val = win0_2.index t (1 : Fin 2) * 16000 + q.val; omega
  show k0_pay1 (F := Ideal) (iblk m c 0 t) (iblk m c 1 t) (ix2 p q) = result m c (((cfg0.win 2).blk t).view.emb (ix2 p q))
  rw [hi]
  refine (Block.payload_apply (iblk m c 0 t) (iblk m c 1 t) p q).trans ?_
  refine congrArg Ideal.logistic (Finset.sum_congr rfl fun k _ => congrArg₂ (· * ·) ?_ ?_)
  · exact feature_block m c t p k r (by show win0_2.index t (0 : Fin 2) * 128 + p.val = _; omega) e01
  · exact table_block m c t q (col k) v (by show win0_2.index t (1 : Fin 2) * 16000 + q.val = _; omega) e11

/-- An entry of the array is in point `t`'s block iff each coordinate is in the block's range on its axis. -/
theorem mem_block (t : Fin cfg0.N) (i : S256x400000.Idx) :
    i ∈ ((cfg0.win 2).blk t).view.set ↔ ∀ a : Fin 2, win0_2.index t a * S128x16000.size a ≤ (i a).val
      ∧ (i a).val < win0_2.index t a * S128x16000.size a + S128x16000.size a := by
  show i ∈ ((View.whole main_v80).slice (win0_2.rect t)).set ↔ _
  rw [View.set_slice_whole, Rect.mem_set_unit]
  exact Iff.rfl

/-- The blocks tile the array: entry `[b, v]` lies in the block of row block `b / 128` and column block
    `v / 16000`, which some point writes back. -/
theorem blocks_cover (i : S256x400000.Idx) :
    ∃ t : Fin cfg0.N, (cfg0.win 2).flush t = true ∧ i ∈ ((cfg0.win 2).blk t).view.set := by
  have hi0 : (i 0).val < 256 := (i 0).isLt
  have hi1 : (i 1).val < 400000 := (i 1).isLt
  obtain ⟨t, ht⟩ := block_onto ⟨(i 0).val / 128, by omega⟩ ⟨(i 1).val / 16000, by omega⟩
  have q0 : win0_2.index t (0 : Fin 2) = (i 0).val / 128 := congrFun ht 0
  have q1 : win0_2.index t (1 : Fin 2) = (i 1).val / 16000 := congrFun ht 1
  refine ⟨t, flush0_2 t, ?_⟩
  rw [mem_block]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 16000 ≤ (i 1).val ∧ (i 1).val < win0_2.index t (1 : Fin 2) * 16000 + 16000; omega

/-- THE ARRAY after the run is the score matrix. -/
theorem final (c : Dev nD) : (dats m 0 c).arrAt 2 cfg0.N = result m c :=
  (dats m 0 c).arrAt_eq_of_cover 2 (result m c) (fun t _ => flushed_is_block m c t) blocks_cover

/-- The kernel's run: every weakly fair execution terminates with the result array at the score matrix of the
    arguments and the arguments as launched. -/
theorem run : θ_run defs (onTc (τ := τ) (main (F := Ideal))) ⟨m, fun _ => 0, ρ⟩ fun r => ∀ c : Dev nD,
      r.2.mem ((c : Thread nD τ).loc main_v80) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Whole

end
-- ==== Proof.lean ====
/-
  The kernel scores a batch of 256 feature rows against 400000 entity rows; so does the reference.

  Both programs first run the same chain of host operations on the same fourteen arguments — two table look-ups,
  a normalisation, two projections, gathered products summed and scaled, a signed square root, a row
  normalisation and a second normalisation — and so arrive at the same [256, 30] feature matrix `X`. That chain is
  carried as one function of the arguments and never opened.

  From `X` and the [400000, 128] entity table `E` both compute
        out[b, v] = σ( ∑_{k < 30} X[b, k] · E[v, k] ),        σ(z) = 1 / (1 + e^(-z)),
  on the extended reals. The reference does it whole: it slices the first 30 columns of `E`, transposes, contracts
  with `X`, and spells σ as negate, exponential, add one, divide into one. The kernel does it block by block over a
  25 × 2 grid: a [128, 30] block of `X` (after a change of float format, the identity on extended reals) against the
  first 30 columns of a [16000, 128] block of `E`, contracted into a zero accumulator, then σ as one operation; the
  50 result blocks tile the [256, 400000] array.

  The two agree entry by entry because a product into a zero accumulator is the plain finite sum of products, the
  block of an array read at a block coordinate is the array read at offset + coordinate, and σ spelt out is σ at
  every extended real (σ(-∞) = 0, σ(+∞) = 1). Only re-indexing of a finite sum is used — no distributivity and no
  cancellation — so the agreement holds at infinite entries too and the finiteness of the inputs is not needed.

  The three frames are the generated frame runs (the reference's is its run with the result dropped); the kernel's
  idealization rewrote no operation, so nothing is owed for it.
-/
import proofs.«119976_j33054068310429_2_alg».proof.Defs
import proofs.«119976_j33054068310429_2_alg».proof.Proof.Gen.Kernel
import proofs.«119976_j33054068310429_2_alg».proof.Proof.Gen.Kernel.Skeleton
import proofs.«119976_j33054068310429_2_alg».proof.Proof.Gen.Kernel.Launch
import proofs.«119976_j33054068310429_2_alg».proof.Proof.Gen.Kernel.Points
import proofs.«119976_j33054068310429_2_alg».proof.Proof.Gen.Kernel.Frame
import proofs.«119976_j33054068310429_2_alg».proof.Proof.Gen.KernelIdeal
import proofs.«119976_j33054068310429_2_alg».proof.Proof.Gen.KernelIdeal.Skeleton
import proofs.«119976_j33054068310429_2_alg».proof.Proof.Gen.KernelIdeal.Launch
import proofs.«119976_j33054068310429_2_alg».proof.Proof.Gen.KernelIdeal.Points
import proofs.«119976_j33054068310429_2_alg».proof.Proof.Gen.KernelIdeal.Frame
import proofs.«119976_j33054068310429_2_alg».proof.Proof.Gen.ReferenceIdeal
import proofs.«119976_j33054068310429_2_alg».proof.Proof.Gen.Pre_finite_inputs
import proofs.«119976_j33054068310429_2_alg».proof.Proof.Gen.KernelIdeal.Value
import proofs.«119976_j33054068310429_2_alg».proof.Proof.Gen.ReferenceIdeal.Run
import proofs.«119976_j33054068310429_2_alg».proof.Proof.Gen.ReferenceIdeal.Read
import proofs.«119976_j33054068310429_2_alg».proof.Proof.RefScore
import proofs.«119976_j33054068310429_2_alg».proof.Proof.KernelValue
import Idealize.ShloMosaic.Adequacy
import Idealize.ShloMosaic.Init

noncomputable section

namespace Cert.Proof

open Idealize.ShloMosaic Idealize.SL.Sem Cert.Kernel

/-- The word-level kernel runs, faults nowhere and leaves its arguments as launched. -/
theorem frame_kernel : Cert.frame_Kernel := fun m ρ _ => Cert.Kernel.Gen.frame m ρ

/-- So does the kernel read on extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the fourteen arguments, the kernel's result array ends at the score matrix of its
    arguments (block by block, then the cover) and the reference's at the score matrix of its own (its last ten
    operations read at an index): the same matrix. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v87_eq, Cert.ReferenceIdeal.RefScore.result_is_score]
  obtain ⟨h0, h1, h2, h3, h4, h5, h6, h7, h8, h9, h10, h11, h12, h13⟩ := hagree c
  rw [h0, h1, h2, h3, h4, h5, h6, h7, h8, h9, h10, h11, h12, h13]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
